-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel

variable [Facts]

def fn_part1 {F : FTy → Type} [FloatOps F] (main_v13 : IVec S_ 1) (main_v16 : IVec S16x64x128x128 1) : IVec S_ 1 :=
  let main_c_5 : IVec S_ 1 := constantI S_ 1 1#1
  let main_v17 : IVec S_ 1 := (fun x v => Host.reduce IntOp.andi x v reducesTo_S16x64x128x128_S_d0_1_2_3 h_S_) main_v16 main_c_5
  let main_v18 : IVec S_ 1 := andi main_v13 main_v17
  main_v18

def fn {F : FTy → Type} [FloatOps F] (main_arg0 : FVec F S16x64x128x128 .f32) (main_arg1 : FVec F S16x64x128x128 .f32) (main_arg2 : FVec F S16x64x128x128 .f32) (main_arg3 : FVec F S16x64x128x128 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  let main_v4 : FVec F S16x64x128x128 .f32 := Host.absf main_arg1
  let main_cst_0 : FVec F S_ .f32 := constant S_ .f32 0x7F800000#32
  let main_v5 : FVec F S16x64x128x128 .f32 := broadcastInDim S16x64x128x128 ![] bcast_S_S16x64x128x128 main_cst_0
  let main_v6 : IVec S16x64x128x128 1 := cmpf .olt main_v4 main_v5
  let main_c_1 : IVec S_ 1 := constantI S_ 1 1#1
  let main_v7 : IVec S_ 1 := (fun x v => Host.reduce IntOp.andi x v reducesTo_S16x64x128x128_S_d0_1_2_3 h_S_) main_v6 main_c_1
  let main_v8 : IVec S_ 1 := andi main_v3 main_v7
  let main_v9 : FVec F S16x64x128x128 .f32 := Host.absf main_arg2
  let main_cst_2 : FVec F S_ .f32 := constant S_ .f32 0x7F800000#32
  let main_v10 : FVec F S16x64x128x128 .f32 := broadcastInDim S16x64x128x128 ![] bcast_S_S16x64x128x128 main_cst_2
  let main_v11 : IVec S16x64x128x128 1 := cmpf .olt main_v9 main_v10
  let main_c_3 : IVec S_ 1 := constantI S_ 1 1#1
  let main_v12 : IVec S_ 1 := (fun x v => Host.reduce IntOp.andi x v reducesTo_S16x64x128x128_S_d0_1_2_3 h_S_) main_v11 main_c_3
  let main_v13 : IVec S_ 1 := andi main_v8 main_v12
  let main_v14 : FVec F S16x64x128x128 .f32 := Host.absf main_arg3
  let main_cst_4 : FVec F S_ .f32 := constant S_ .f32 0x7F800000#32
  let main_v15 : FVec F S16x64x128x128 .f32 := broadcastInDim S16x64x128x128 ![] bcast_S_S16x64x128x128 main_cst_4
  let main_v16 : IVec S16x64x128x128 1 := cmpf .olt main_v14 main_v15
  fn_part1 (F := F) main_v13 main_v16
-- ==== Kernel.lean ====
abbrev S16x64x128x128 : Shape := ⟨4, ![16, 64, 128, 128]⟩
abbrev S1024x128x128 : Shape := ⟨3, ![1024, 128, 128]⟩
abbrev S16x128x128 : Shape := ⟨3, ![16, 128, 128]⟩
abbrev S1024x128x128x1 : Shape := ⟨4, ![1024, 128, 128, 1]⟩
abbrev S1024x128x128x2 : Shape := ⟨4, ![1024, 128, 128, 2]⟩
abbrev S1024x128x128x1x2 : Shape := ⟨5, ![1024, 128, 128, 1, 2]⟩
abbrev S1024x128x128x2x2 : Shape := ⟨5, ![1024, 128, 128, 2, 2]⟩
abbrev S1024x128x2x128x2 : Shape := ⟨5, ![1024, 128, 2, 128, 2]⟩
abbrev S1024x256x256 : Shape := ⟨3, ![1024, 256, 256]⟩
abbrev S16x64x256x256 : Shape := ⟨4, ![16, 64, 256, 256]⟩

abbrev nBuf : Space → Nat
  | .hbm => 24
  | .vmem => 16
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S1024x128x128, .f32⟩
  | .hbm, ⟨5, _⟩ => ⟨S1024x128x128, .f32⟩
  | .hbm, ⟨6, _⟩ => ⟨S1024x128x128, .f32⟩
  | .hbm, ⟨7, _⟩ => ⟨S1024x128x128, .f32⟩
  | .hbm, ⟨8, _⟩ => ⟨S1024x128x128, .f32⟩
  | .hbm, ⟨9, _⟩ => ⟨S1024x128x128, .f32⟩
  | .hbm, ⟨10, _⟩ => ⟨S1024x128x128, .f32⟩
  | .hbm, ⟨11, _⟩ => ⟨S1024x128x128, .f32⟩
  | .hbm, ⟨12, _⟩ => ⟨S1024x128x128x1, .f32⟩
  | .hbm, ⟨13, _⟩ => ⟨S1024x128x128x1, .f32⟩
  | .hbm, ⟨14, _⟩ => ⟨S1024x128x128x2, .f32⟩
  | .hbm, ⟨15, _⟩ => ⟨S1024x128x128x1, .f32⟩
  | .hbm, ⟨16, _⟩ => ⟨S1024x128x128x1, .f32⟩
  | .hbm, ⟨17, _⟩ => ⟨S1024x128x128x2, .f32⟩
  | .hbm, ⟨18, _⟩ => ⟨S1024x128x128x1x2, .f32⟩
  | .hbm, ⟨19, _⟩ => ⟨S1024x128x128x1x2, .f32⟩
  | .hbm, ⟨20, _⟩ => ⟨S1024x128x128x2x2, .f32⟩
  | .hbm, ⟨21, _⟩ => ⟨S1024x128x2x128x2, .f32⟩
  | .hbm, ⟨22, _⟩ => ⟨S1024x256x256, .f32⟩
  | .hbm, ⟨23, _⟩ => ⟨S16x64x256x256, .f32⟩
  | .local _ .vmem, ⟨0, _⟩ => ⟨S16x128x128, .f32⟩
  | .local _ .vmem, ⟨1, _⟩ => ⟨S16x128x128, .f32⟩
  | .local _ .vmem, ⟨2, _⟩ => ⟨S16x128x128, .f32⟩
  | .local _ .vmem, ⟨3, _⟩ => ⟨S16x128x128, .f32⟩
  | .local _ .vmem, ⟨4, _⟩ => ⟨S16x128x128, .f32⟩
  | .local _ .vmem, ⟨5, _⟩ => ⟨S16x128x128, .f32⟩
  | .local _ .vmem, ⟨6, _⟩ => ⟨S16x128x128, .f32⟩
  | .local _ .vmem, ⟨7, _⟩ => ⟨S16x128x128, .f32⟩
  | .local _ .vmem, ⟨8, _⟩ => ⟨S16x128x128, .f32⟩
  | .local _ .vmem, ⟨9, _⟩ => ⟨S16x128x128, .f32⟩
  | .local _ .vmem, ⟨10, _⟩ => ⟨S16x128x128, .f32⟩
  | .local _ .vmem, ⟨11, _⟩ => ⟨S16x128x128, .f32⟩
  | .local _ .vmem, ⟨12, _⟩ => ⟨S16x128x128, .f32⟩
  | .local _ .vmem, ⟨13, _⟩ => ⟨S16x128x128, .f32⟩
  | .local _ .vmem, ⟨14, _⟩ => ⟨S16x128x128, .f32⟩
  | .local _ .vmem, ⟨15, _⟩ => ⟨S16x128x128, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x64x128x128_S1024x128x128 : S16x64x128x128.ShapeCasts S1024x128x128
  inb_S16x128x128_S16x128x128_0_0_0 : ∀ a, (![0, 0, 0] : Fin 3 → Nat) a + S16x128x128.size a ≤ S16x128x128.size a
  h_S16x128x128 : 0 < S16x128x128.numel
  shapeCasts_S16x128x128_S16x128x128 : S16x128x128.ShapeCasts S16x128x128
  bcast_S1024x128x128_S1024x128x128x1_0_1_2 : S1024x128x128.BroadcastsInDim S1024x128x128x1 (![0, 1, 2] : Fin 3 → Fin S1024x128x128x1.rank)
  concatenates_S1024x128x128x1_S1024x128x128x1_S1024x128x128x2_d3 : Shape.Concatenates [S1024x128x128x1, S1024x128x128x1] S1024x128x128x2 3
  bcast_S1024x128x128x2_S1024x128x128x1x2_0_1_2_4 : S1024x128x128x2.BroadcastsInDim S1024x128x128x1x2 (![0, 1, 2, 4] : Fin 4 → Fin S1024x128x128x1x2.rank)
  concatenates_S1024x128x128x1x2_S1024x128x128x1x2_S1024x128x128x2x2_d3 : Shape.Concatenates [S1024x128x128x1x2, S1024x128x128x1x2] S1024x128x128x2x2 3
  transposes_S1024x128x128x2x2_S1024x128x2x128x2_0_1_3_2_4 : S1024x128x128x2x2.Transposes [0, 1, 3, 2, 4] S1024x128x2x128x2
  shapeCasts_S1024x128x2x128x2_S1024x256x256 : S1024x128x2x128x2.ShapeCasts S1024x256x256
  shapeCasts_S1024x256x256_S16x64x256x256 : S1024x256x256.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x128.size a ≤ S1024x128x128.size a
  hwx0_0 : ∀ i : grid0.Coords, EltTy.bits .f32 = 32 ∨ (Rect.block (s := S1024x128x128) S16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x128.size a ≤ S1024x128x128.size a
  hwx0_1 : ∀ i : grid0.Coords, EltTy.bits .f32 = 32 ∨ (Rect.block (s := S1024x128x128) S16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x128.size a ≤ S1024x128x128.size a
  hwx0_2 : ∀ i : grid0.Coords, EltTy.bits .f32 = 32 ∨ (Rect.block (s := S1024x128x128) S16x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x128.size a ≤ S1024x128x128.size a
  hwx0_3 : ∀ i : grid0.Coords, EltTy.bits .f32 = 32 ∨ (Rect.block (s := S1024x128x128) S16x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128x128.size a ≤ S1024x128x128.size a
  hwx0_4 : ∀ i : grid0.Coords, EltTy.bits .f32 = 32 ∨ (Rect.block (s := S1024x128x128) S16x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128x128.size a ≤ S1024x128x128.size a
  hwx0_5 : ∀ i : grid0.Coords, EltTy.bits .f32 = 32 ∨ (Rect.block (s := S1024x128x128) S16x128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128x128.size a ≤ S1024x128x128.size a
  hwx0_6 : ∀ i : grid0.Coords, EltTy.bits .f32 = 32 ∨ (Rect.block (s := S1024x128x128) S16x128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128x128.size a ≤ S1024x128x128.size a
  hwx0_7 : ∀ i : grid0.Coords, EltTy.bits .f32 = 32 ∨ (Rect.block (s := S1024x128x128) S16x128x128.size (cc0_transform_7 i) (hinb0_7 i)).WholeWords (EltTy.packing .f32)

variable [Facts₀]

abbrev win0_0 : Pipeline.Window sig grid0 :=
  Pipeline.Window.ofSpec (Memref.whole main_v0) S16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S16x128x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S16x128x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S16x128x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S16x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x64x128x128 : Shape := ⟨4, ![16, 64, 128, 128]⟩
abbrev S_ : Shape := ⟨0, ![]⟩
abbrev S16x64x128x128x1 : Shape := ⟨5, ![16, 64, 128, 128, 1]⟩
abbrev S16x64x128x128x2 : Shape := ⟨5, ![16, 64, 128, 128, 2]⟩
abbrev S16x64x128x128x1x2 : Shape := ⟨6, ![16, 64, 128, 128, 1, 2]⟩
abbrev S16x64x128x128x2x2 : Shape := ⟨6, ![16, 64, 128, 128, 2, 2]⟩
abbrev S16x64x128x2x128x2 : Shape := ⟨6, ![16, 64, 128, 2, 128, 2]⟩
abbrev S16x64x256x256 : Shape := ⟨4, ![16, 64, 256, 256]⟩

abbrev nBuf : Space → Nat
  | .hbm => 39
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S16x64x128x128, .f32⟩
  | .hbm, ⟨5, _⟩ => ⟨S16x64x128x128, .f32⟩
  | .hbm, ⟨6, _⟩ => ⟨S16x64x128x128, .f32⟩
  | .hbm, ⟨7, _⟩ => ⟨S_, .f32⟩
  | .hbm, ⟨8, _⟩ => ⟨S16x64x128x128, .f32⟩
  | .hbm, ⟨9, _⟩ => ⟨S16x64x128x128, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S_, .f32⟩
  | .hbm, ⟨14, _⟩ => ⟨S16x64x128x128, .f32⟩
  | .hbm, ⟨15, _⟩ => ⟨S16x64x128x128, .f32⟩
  | .hbm, ⟨16, _⟩ => ⟨S16x64x128x128, .f32⟩
  | .hbm, ⟨17, _⟩ => ⟨S16x64x128x128, .f32⟩
  | .hbm, ⟨18, _⟩ => ⟨S16x64x128x128, .f32⟩
  | .hbm, ⟨19, _⟩ => ⟨S_, .f32⟩
  | .hbm, ⟨20, _⟩ => ⟨S16x64x128x128, .f32⟩
  | .hbm, ⟨21, _⟩ => ⟨S16x64x128x128, .f32⟩
  | .hbm, ⟨22, _⟩ => ⟨S16x64x128x128, .f32⟩
  | .hbm, ⟨23, _⟩ => ⟨S16x64x128x128, .f32⟩
  | .hbm, ⟨24, _⟩ => ⟨S16x64x128x128, .f32⟩
  | .hbm, ⟨25, _⟩ => ⟨S_, .f32⟩
  | .hbm, ⟨26, _⟩ => ⟨S16x64x128x128, .f32⟩
  | .hbm, ⟨27, _⟩ => ⟨S16x64x128x128, .f32⟩
  | .hbm, ⟨28, _⟩ => ⟨S16x64x128x128x1, .f32⟩
  | .hbm, ⟨29, _⟩ => ⟨S16x64x128x128x1, .f32⟩
  | .hbm, ⟨30, _⟩ => ⟨S16x64x128x128x2, .f32⟩
  | .hbm, ⟨31, _⟩ => ⟨S16x64x128x128x1, .f32⟩
  | .hbm, ⟨32, _⟩ => ⟨S16x64x128x128x1, .f32⟩
  | .hbm, ⟨33, _⟩ => ⟨S16x64x128x128x2, .f32⟩
  | .hbm, ⟨34, _⟩ => ⟨S16x64x128x128x1x2, .f32⟩
  | .hbm, ⟨35, _⟩ => ⟨S16x64x128x128x1x2, .f32⟩
  | .hbm, ⟨36, _⟩ => ⟨S16x64x128x128x2x2, .f32⟩
  | .hbm, ⟨37, _⟩ => ⟨S16x64x128x2x128x2, .f32⟩
  | .hbm, ⟨38, _⟩ => ⟨S16x64x256x256, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  bcast_S_S16x64x128x128 : S_.BroadcastsInDim S16x64x128x128 (![] : Fin 0 → Fin S16x64x128x128.rank)
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x2_d4 : Shape.Concatenates [S16x64x128x128x1, S16x64x128x128x1] S16x64x128x128x2 4
  bcast_S16x64x128x128x2_S16x64x128x128x1x2_0_1_2_3_5 : S16x64x128x128x2.BroadcastsInDim S16x64x128x128x1x2 (![0, 1, 2, 3, 5] : Fin 5 → Fin S16x64x128x128x1x2.rank)
  concatenates_S16x64x128x128x1x2_S16x64x128x128x1x2_S16x64x128x128x2x2_d4 : Shape.Concatenates [S16x64x128x128x1x2, S16x64x128x128x1x2] S16x64x128x128x2x2 4
  transposes_S16x64x128x128x2x2_S16x64x128x2x128x2_0_1_2_4_3_5 : S16x64x128x128x2x2.Transposes [0, 1, 2, 4, 3, 5] S16x64x128x2x128x2
  shapeCasts_S16x64x128x2x128x2_S16x64x256x256 : S16x64x128x2x128x2.ShapeCasts S16x64x256x256

variable [Facts₀]

class Facts : Prop extends Facts₀ where

variable [Facts]
-- ==== Proof.Haar.lean ====
/-
  The inverse Haar step as ONE function of the four subbands, index by index.

  Each 2×2 block of the full-resolution image comes from one coefficient 4-tuple (LL, LH, HL, HH) at the
  half-resolution position: with half = 1/2,
      a = (((LL + LH) + HL) + HH) · half   at (2p,   2q)
      b = (((LL + LH) − HL) − HH) · half   at (2p,   2q+1)
      c = (((LL − LH) + HL) − HH) · half   at (2p+1, 2q)
      d = (((LL − LH) − HL) + HH) · half   at (2p+1, 2q+1)
  so the pixel (y, x) of image (b, c) is the coefficient chosen by the parities (y mod 2, x mod 2) of the
  4-tuple at (b, c, y / 2, x / 2). Both programs group the three additions and the product in exactly this
  order, so the four forms are kept as operation trees over any float instance and never opened.
-/
import Idealize.ShloMosaic.PureOps
import Idealize.ShloMosaic.Lib.ValueIdx

noncomputable section

namespace Cert.Haar

open Idealize.ShloMosaic Idealize.ShloMosaic.ValueIdx

variable {F : FTy → Type} [FloatOps F]

/-- The half-resolution subbands' shape and the full-resolution image's. -/
abbrev Sub : Shape := ⟨4, ![16, 64, 128, 128]⟩
abbrev Full : Shape := ⟨4, ![16, 64, 256, 256]⟩

/-- The top-left pixel of a block. -/
def ca (ll lh hl hh : Elt F .f32) : Elt F .f32 :=
  FloatOps.mulf (FloatOps.addf (FloatOps.addf (FloatOps.addf ll lh) hl) hh) (FloatOps.ofBits .f32 0x3F000000#32)
/-- The top-right pixel. -/
def cb (ll lh hl hh : Elt F .f32) : Elt F .f32 :=
  FloatOps.mulf (FloatOps.subf (FloatOps.subf (FloatOps.addf ll lh) hl) hh) (FloatOps.ofBits .f32 0x3F000000#32)
/-- The bottom-left pixel. -/
def cc (ll lh hl hh : Elt F .f32) : Elt F .f32 :=
  FloatOps.mulf (FloatOps.subf (FloatOps.addf (FloatOps.subf ll lh) hl) hh) (FloatOps.ofBits .f32 0x3F000000#32)
/-- The bottom-right pixel. -/
def cd (ll lh hl hh : Elt F .f32) : Elt F .f32 :=
  FloatOps.mulf (FloatOps.addf (FloatOps.subf (FloatOps.subf ll lh) hl) hh) (FloatOps.ofBits .f32 0x3F000000#32)

/-- One of four values by two parities: the first chooses the row of the block, the second the column. -/
def pick {α : Type} (r s : Nat) (a b c d : α) : α :=
  if r = 0 then (if s = 0 then a else b) else (if s = 0 then c else d)

/-- The pixel of a block at row parity `r` and column parity `s`. -/
def coef (r s : Nat) (ll lh hl hh : Elt F .f32) : Elt F .f32 :=
  pick r s (ca ll lh hl hh) (cb ll lh hl hh) (cc ll lh hl hh) (cd ll lh hl hh)

/-- The half-resolution position a pixel's block comes from. -/
def parent (i : Full.Idx) : Sub.Idx :=
  ix4 (n0 := 16) (n1 := 64) (n2 := 128) (n3 := 128) (i 0) (i 1) ⟨(i 2).val / 2, by have := (i 2).isLt; show (i 2).val / 2 < 128; have h : (i 2).val < 256 := this; omega⟩
    ⟨(i 3).val / 2, by have := (i 3).isLt; show (i 3).val / 2 < 128; have h : (i 3).val < 256 := this; omega⟩

/-- The reconstructed image: pixel `i` is the coefficient its parities choose, of the 4-tuple at its parent. -/
def G (LL LH HL HH : Sub.Idx → Elt F .f32) : Full.Idx → Elt F .f32 := fun i =>
  coef ((i 2).val % 2) ((i 3).val % 2) (LL (parent i)) (LH (parent i)) (HL (parent i)) (HH (parent i))

end Cert.Haar

end
-- ==== Proof.RefValue.lean ====
/-
  The reference program's result is the inverse Haar step `Haar.G` of its four arguments.

  The reference forms the four coefficient arrays a, b, c, d over [16, 64, 128, 128], stacks a with b and c with d
  along a new last axis (a concatenation of two arrays with a unit last axis), stacks those two along a new
  fifth axis, exchanges the fourth and fifth axes, and reshapes [16, 64, 128, 2, 128, 2] to [16, 64, 256, 256].
  Read backwards at a pixel (b, c, y, x): the reshape reads (b, c, y/2, y%2, x/2, x%2) (equal row-major positions),
  the transpose reads (b, c, y/2, x/2, y%2, x%2), the outer concatenation chooses the row pair by y%2, the inner one
  the column by x%2, and what is left is one coefficient array at (b, c, y/2, x/2).
-/
import proofs.«131029_j43722767073763_1_alg».proof.Proof.Gen.ReferenceIdeal.Read
import proofs.«131029_j43722767073763_1_alg».proof.Proof.Haar
import Idealize.ShloMosaic.Lib.ValueIdx
import Idealize.ShloMosaic.Lib.ValueIdxRank6

noncomputable section

namespace Cert.ReferenceIdeal.RefValue

open Cert.ReferenceIdeal Cert.ReferenceIdeal.Gen Cert.ReferenceIdeal.Read
open Idealize.ShloMosaic Idealize.ShloMosaic.ValueIdx

variable {F : FTy → Type} [FloatOps F]

/-! ## The four coefficient arrays at an index -/

theorem a_at (x0 x1 x2 x3 : (⟨S16x64x128x128, .f32⟩ : BufTy).Contents (Elt F)) (k : S16x64x128x128.Idx) :
    val_main_v4 (F := F) x0 x1 x2 x3 k = Haar.ca (x0 k) (x1 k) (x2 k) (x3 k) := by
  rw [val_main_v4_apply, val_main_v3_apply, val_main_cst_apply, val_main_v2_apply, val_main_v1_apply, val_main_v0_apply]
  rfl

theorem b_at (x0 x1 x2 x3 : (⟨S16x64x128x128, .f32⟩ : BufTy).Contents (Elt F)) (k : S16x64x128x128.Idx) :
    val_main_v9 (F := F) x0 x1 x2 x3 k = Haar.cb (x0 k) (x1 k) (x2 k) (x3 k) := by
  rw [val_main_v9_apply, val_main_v8_apply, val_main_cst_0_apply, val_main_v7_apply, val_main_v6_apply, val_main_v5_apply]
  rfl

theorem c_at (x0 x1 x2 x3 : (⟨S16x64x128x128, .f32⟩ : BufTy).Contents (Elt F)) (k : S16x64x128x128.Idx) :
    val_main_v14 (F := F) x0 x1 x2 x3 k = Haar.cc (x0 k) (x1 k) (x2 k) (x3 k) := by
  rw [val_main_v14_apply, val_main_v13_apply, val_main_cst_1_apply, val_main_v12_apply, val_main_v11_apply, val_main_v10_apply]
  rfl

theorem d_at (x0 x1 x2 x3 : (⟨S16x64x128x128, .f32⟩ : BufTy).Contents (Elt F)) (k : S16x64x128x128.Idx) :
    val_main_v19 (F := F) x0 x1 x2 x3 k = Haar.cd (x0 k) (x1 k) (x2 k) (x3 k) := by
  rw [val_main_v19_apply, val_main_v18_apply, val_main_cst_2_apply, val_main_v17_apply, val_main_v16_apply, val_main_v15_apply]
  rfl

/-! ## The two stackings at an index -/

/-- a stacked with b along a new last axis: the last coordinate chooses. -/
theorem row0_at (x0 x1 x2 x3 : (⟨S16x64x128x128, .f32⟩ : BufTy).Contents (Elt F)) (b : Fin 16) (c : Fin 64) (p : Fin 128) (q : Fin 128) (s : Fin 2) :
    val_main_v22 (F := F) x0 x1 x2 x3 (ix5 b c p q s)
      = if s.val = 0 then val_main_v4 (F := F) x0 x1 x2 x3 (ix4 b c p q) else val_main_v9 (F := F) x0 x1 x2 x3 (ix4 b c p q) := by
  unfold val_main_v22
  have hs : s.val < 2 := s.isLt
  by_cases h : s.val = 0
  · rw [if_pos h]
    refine (concatenate_pair_apply_left (s₁ := S16x64x128x128x1) _ _ _ _ (ix5 b c p q s) rfl (ix5 b c p q (⟨0, by decide⟩ : Fin 1)) ?_).trans ?_
    · intro a
      match a with
      | ⟨0, _⟩ => rfl
      | ⟨1, _⟩ => rfl
      | ⟨2, _⟩ => rfl
      | ⟨3, _⟩ => rfl
      | ⟨4, _⟩ => exact h.symm
    · rw [val_main_v20_apply]
      refine congrArg _ (funext fun a => ?_)
      match a with
      | ⟨0, _⟩ => rfl
      | ⟨1, _⟩ => rfl
      | ⟨2, _⟩ => rfl
      | ⟨3, _⟩ => rfl
  · rw [if_neg h]
    refine (concatenate_pair_apply_right (s₁ := S16x64x128x128x1) (s₂ := S16x64x128x128x1) _ _ _ _ (ix5 b c p q s) rfl rfl (ix5 b c p q (⟨0, by decide⟩ : Fin 1)) ?_ ?_).trans ?_
    · intro a ha
      match a with
      | ⟨0, _⟩ => rfl
      | ⟨1, _⟩ => rfl
      | ⟨2, _⟩ => rfl
      | ⟨3, _⟩ => rfl
      | ⟨4, _⟩ => exact absurd rfl ha
    · show 0 + 1 = s.val
      omega
    · rw [val_main_v21_apply]
      refine congrArg _ (funext fun a => ?_)
      match a with
      | ⟨0, _⟩ => rfl
      | ⟨1, _⟩ => rfl
      | ⟨2, _⟩ => rfl
      | ⟨3, _⟩ => rfl

/-- c stacked with d along a new last axis. -/
theorem row1_at (x0 x1 x2 x3 : (⟨S16x64x128x128, .f32⟩ : BufTy).Contents (Elt F)) (b : Fin 16) (c : Fin 64) (p : Fin 128) (q : Fin 128) (s : Fin 2) :
    val_main_v25 (F := F) x0 x1 x2 x3 (ix5 b c p q s)
      = if s.val = 0 then val_main_v14 (F := F) x0 x1 x2 x3 (ix4 b c p q) else val_main_v19 (F := F) x0 x1 x2 x3 (ix4 b c p q) := by
  unfold val_main_v25
  have hs : s.val < 2 := s.isLt
  by_cases h : s.val = 0
  · rw [if_pos h]
    refine (concatenate_pair_apply_left (s₁ := S16x64x128x128x1) _ _ _ _ (ix5 b c p q s) rfl (ix5 b c p q (⟨0, by decide⟩ : Fin 1)) ?_).trans ?_
    · intro a
      match a with
      | ⟨0, _⟩ => rfl
      | ⟨1, _⟩ => rfl
      | ⟨2, _⟩ => rfl
      | ⟨3, _⟩ => rfl
      | ⟨4, _⟩ => exact h.symm
    · rw [val_main_v23_apply]
      refine congrArg _ (funext fun a => ?_)
      match a with
      | ⟨0, _⟩ => rfl
      | ⟨1, _⟩ => rfl
      | ⟨2, _⟩ => rfl
      | ⟨3, _⟩ => rfl
  · rw [if_neg h]
    refine (concatenate_pair_apply_right (s₁ := S16x64x128x128x1) (s₂ := S16x64x128x128x1) _ _ _ _ (ix5 b c p q s) rfl rfl (ix5 b c p q (⟨0, by decide⟩ : Fin 1)) ?_ ?_).trans ?_
    · intro a ha
      match a with
      | ⟨0, _⟩ => rfl
      | ⟨1, _⟩ => rfl
      | ⟨2, _⟩ => rfl
      | ⟨3, _⟩ => rfl
      | ⟨4, _⟩ => exact absurd rfl ha
    · show 0 + 1 = s.val
      omega
    · rw [val_main_v24_apply]
      refine congrArg _ (funext fun a => ?_)
      match a with
      | ⟨0, _⟩ => rfl
      | ⟨1, _⟩ => rfl
      | ⟨2, _⟩ => rfl
      | ⟨3, _⟩ => rfl

/-- The two row pairs stacked along a new fifth axis: the fifth coordinate chooses the pair. -/
theorem block_at (x0 x1 x2 x3 : (⟨S16x64x128x128, .f32⟩ : BufTy).Contents (Elt F)) (b : Fin 16) (c : Fin 64) (p : Fin 128) (q : Fin 128) (r s : Fin 2) :
    val_main_v28 (F := F) x0 x1 x2 x3 (ix6 b c p q r s)
      = if r.val = 0 then val_main_v22 (F := F) x0 x1 x2 x3 (ix5 b c p q s) else val_main_v25 (F := F) x0 x1 x2 x3 (ix5 b c p q s) := by
  unfold val_main_v28
  have hr : r.val < 2 := r.isLt
  by_cases h : r.val = 0
  · rw [if_pos h]
    refine (concatenate_pair_apply_left (s₁ := S16x64x128x128x1x2) _ _ _ _ (ix6 b c p q r s) rfl (ix6 b c p q (⟨0, by decide⟩ : Fin 1) s) ?_).trans ?_
    · intro a
      match a with
      | ⟨0, _⟩ => rfl
      | ⟨1, _⟩ => rfl
      | ⟨2, _⟩ => rfl
      | ⟨3, _⟩ => rfl
      | ⟨4, _⟩ => exact h.symm
      | ⟨5, _⟩ => rfl
    · rw [val_main_v26_apply]
      refine congrArg _ (funext fun a => ?_)
      match a with
      | ⟨0, _⟩ => rfl
      | ⟨1, _⟩ => rfl
      | ⟨2, _⟩ => rfl
      | ⟨3, _⟩ => rfl
      | ⟨4, _⟩ => rfl
  · rw [if_neg h]
    refine (concatenate_pair_apply_right (s₁ := S16x64x128x128x1x2) (s₂ := S16x64x128x128x1x2) _ _ _ _ (ix6 b c p q r s) rfl rfl (ix6 b c p q (⟨0, by decide⟩ : Fin 1) s) ?_ ?_).trans ?_
    · intro a ha
      match a with
      | ⟨0, _⟩ => rfl
      | ⟨1, _⟩ => rfl
      | ⟨2, _⟩ => rfl
      | ⟨3, _⟩ => rfl
      | ⟨4, _⟩ => exact absurd rfl ha
      | ⟨5, _⟩ => rfl
    · show 0 + 1 = r.val
      omega
    · rw [val_main_v27_apply]
      refine congrArg _ (funext fun a => ?_)
      match a with
      | ⟨0, _⟩ => rfl
      | ⟨1, _⟩ => rfl
      | ⟨2, _⟩ => rfl
      | ⟨3, _⟩ => rfl
      | ⟨4, _⟩ => rfl

/-! ## The exchanged axes, and the whole result -/

/-- After the exchange of the fourth and fifth axes, entry (b, c, p, r, q, s) is the block's pixel (r, s). -/
theorem shuffled_at (x0 x1 x2 x3 : (⟨S16x64x128x128, .f32⟩ : BufTy).Contents (Elt F)) (b : Fin 16) (c : Fin 64) (p : Fin 128) (r : Fin 2) (q : Fin 128) (s : Fin 2) :
    val_main_v29 (F := F) x0 x1 x2 x3 (ix6 b c p r q s)
      = Haar.coef r.val s.val (x0 (ix4 b c p q)) (x1 (ix4 b c p q)) (x2 (ix4 b c p q)) (x3 (ix4 b c p q)) := by
  have e : idx_main_v29 (ix6 b c p r q s) = ix6 b c p q r s := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [val_main_v29_apply, e, block_at, row0_at, row1_at, a_at, b_at, c_at, d_at]
  rfl

/-- THE REFERENCE'S RESULT is the inverse Haar step of its arguments. -/
theorem result_eq (x0 x1 x2 x3 : (⟨S16x64x128x128, .f32⟩ : BufTy).Contents (Elt F)) : val_main_v30 (F := F) x0 x1 x2 x3 = Haar.G (F := F) x0 x1 x2 x3 := by
  funext i
  have h2 : (i 2).val < 256 := (i 2).isLt
  have h3 : (i 3).val < 256 := (i 3).isLt
  unfold val_main_v30
  refine (shapeCast_apply _ _ i (ix6 (n0 := 16) (n1 := 64) (i 0) (i 1) (⟨(i 2).val / 2, by omega⟩ : Fin 128) (⟨(i 2).val % 2, by omega⟩ : Fin 2)
      (⟨(i 3).val / 2, by omega⟩ : Fin 128) (⟨(i 3).val % 2, by omega⟩ : Fin 2)) ?_).trans ?_
  · rw [Shape.rowMajor_val_six, Shape.rowMajor_val_four]
    show (((((i 0).val * 64 + (i 1).val) * 128 + (i 2).val / 2) * 2 + (i 2).val % 2) * 128 + (i 3).val / 2) * 2 + (i 3).val % 2
      = (((i 0).val * 64 + (i 1).val) * 256 + (i 2).val) * 256 + (i 3).val
    omega
  · exact (shuffled_at x0 x1 x2 x3 (i 0) (i 1) _ _ _ _).trans rfl

end Cert.ReferenceIdeal.RefValue

end
-- ==== Proof.KernelTail.lean ====
/-
  The kernel program's host lines after the region, as ONE function of the four coefficient arrays, read at a pixel.

  After the region the program holds the four coefficient arrays A, B, C, D over [1024, 128, 128] (the sixteen batches
  and sixty-four channels flattened into one leading axis). It stacks A with B and C with D along a new last axis,
  stacks those two along a new fourth axis, exchanges the third and fourth axes, reshapes [1024, 128, 2, 128, 2] to
  [1024, 256, 256] and then to [16, 64, 256, 256]. Read backwards at a pixel (b, c, y, x): the two reshapes read
  (64 b + c, y/2, y%2, x/2, x%2) (equal row-major positions), the transpose reads (64 b + c, y/2, x/2, y%2, x%2), the
  outer concatenation chooses the row pair by y%2 and the inner one the column by x%2: the pixel is one of
  A, B, C, D at (64 b + c, y/2, x/2).
-/
import proofs.«131029_j43722767073763_1_alg».proof.Proof.Gen.KernelIdeal
import proofs.«131029_j43722767073763_1_alg».proof.Proof.Haar
import Idealize.ShloMosaic.Lib.Pipeline.Value
import Idealize.ShloMosaic.Lib.ValueIdx

noncomputable section

namespace Cert.KernelIdeal.Tail

open Cert.KernelIdeal Cert.KernelIdeal.Facts₀
open Idealize.ShloMosaic Idealize.ShloMosaic.ValueIdx

variable {α : Type}

/-- Two arrays stacked along a new last axis: the last coordinate chooses. -/
def pair (X Y : S1024x128x128.Idx → α) : S1024x128x128x2.Idx → α :=
  concatenate S1024x128x128x2 3
    [⟨S1024x128x128x1, broadcastInDim S1024x128x128x1 ![0, 1, 2] bcast_S1024x128x128_S1024x128x128x1_0_1_2 X⟩,
     ⟨S1024x128x128x1, broadcastInDim S1024x128x128x1 ![0, 1, 2] bcast_S1024x128x128_S1024x128x128x1_0_1_2 Y⟩]
    concatenates_S1024x128x128x1_S1024x128x128x1_S1024x128x128x2_d3

/-- Two such pairs stacked along a new fourth axis: the fourth coordinate chooses the pair. -/
def quad (U V : S1024x128x128x2.Idx → α) : S1024x128x128x2x2.Idx → α :=
  concatenate S1024x128x128x2x2 3
    [⟨S1024x128x128x1x2, broadcastInDim S1024x128x128x1x2 ![0, 1, 2, 4] bcast_S1024x128x128x2_S1024x128x128x1x2_0_1_2_4 U⟩,
     ⟨S1024x128x128x1x2, broadcastInDim S1024x128x128x1x2 ![0, 1, 2, 4] bcast_S1024x128x128x2_S1024x128x128x1x2_0_1_2_4 V⟩]
    concatenates_S1024x128x128x1x2_S1024x128x128x1x2_S1024x128x128x2x2_d3

/-- The host lines after the region, composed. -/
def tail (A B C D : S1024x128x128.Idx → α) : S16x64x256x256.Idx → α :=
  shapeCast S16x64x256x256
    (shapeCast S1024x256x256
      (transpose S1024x128x2x128x2 [0, 1, 3, 2, 4] (quad (pair A B) (pair C D))
        transposes_S1024x128x128x2x2_S1024x128x2x128x2_0_1_3_2_4)
      shapeCasts_S1024x128x2x128x2_S1024x256x256)
    shapeCasts_S1024x256x256_S16x64x256x256

theorem pair_at (X Y : S1024x128x128.Idx → α) (n : Fin 1024) (p q : Fin 128) (s : Fin 2) :
    pair X Y (ix4 n p q s) = if s.val = 0 then X (ix3 n p q) else Y (ix3 n p q) := by
  unfold pair
  have hs : s.val < 2 := s.isLt
  by_cases h : s.val = 0
  · rw [if_pos h]
    refine (concatenate_pair_apply_left (s₁ := S1024x128x128x1) _ _ _ _ (ix4 n p q s) rfl (ix4 n p q (⟨0, by decide⟩ : Fin 1)) ?_).trans ?_
    · intro a
      match a with
      | ⟨0, _⟩ => rfl
      | ⟨1, _⟩ => rfl
      | ⟨2, _⟩ => rfl
      | ⟨3, _⟩ => exact h.symm
    · refine broadcastInDim_apply _ _ X _ (ix3 n p q) (fun a => ?_)
      match a with
      | ⟨0, _⟩ => show n.val = if (1024 : Nat) = 1 then 0 else n.val; rw [if_neg (by decide)]
      | ⟨1, _⟩ => show p.val = if (128 : Nat) = 1 then 0 else p.val; rw [if_neg (by decide)]
      | ⟨2, _⟩ => show q.val = if (128 : Nat) = 1 then 0 else q.val; rw [if_neg (by decide)]
  · rw [if_neg h]
    refine (concatenate_pair_apply_right (s₁ := S1024x128x128x1) (s₂ := S1024x128x128x1) _ _ _ _ (ix4 n p q s) rfl rfl (ix4 n p q (⟨0, by decide⟩ : Fin 1)) ?_ ?_).trans ?_
    · intro a ha
      match a with
      | ⟨0, _⟩ => rfl
      | ⟨1, _⟩ => rfl
      | ⟨2, _⟩ => rfl
      | ⟨3, _⟩ => exact absurd rfl ha
    · show 0 + 1 = s.val
      omega
    · refine broadcastInDim_apply _ _ Y _ (ix3 n p q) (fun a => ?_)
      match a with
      | ⟨0, _⟩ => show n.val = if (1024 : Nat) = 1 then 0 else n.val; rw [if_neg (by decide)]
      | ⟨1, _⟩ => show p.val = if (128 : Nat) = 1 then 0 else p.val; rw [if_neg (by decide)]
      | ⟨2, _⟩ => show q.val = if (128 : Nat) = 1 then 0 else q.val; rw [if_neg (by decide)]

theorem quad_at (U V : S1024x128x128x2.Idx → α) (n : Fin 1024) (p q : Fin 128) (r s : Fin 2) :
    quad U V (ix5 n p q r s) = if r.val = 0 then U (ix4 n p q s) else V (ix4 n p q s) := by
  unfold quad
  have hr : r.val < 2 := r.isLt
  by_cases h : r.val = 0
  · rw [if_pos h]
    refine (concatenate_pair_apply_left (s₁ := S1024x128x128x1x2) _ _ _ _ (ix5 n p q r s) rfl (ix5 n p q (⟨0, by decide⟩ : Fin 1) s) ?_).trans ?_
    · intro a
      match a with
      | ⟨0, _⟩ => rfl
      | ⟨1, _⟩ => rfl
      | ⟨2, _⟩ => rfl
      | ⟨3, _⟩ => exact h.symm
      | ⟨4, _⟩ => rfl
    · refine broadcastInDim_apply _ _ U _ (ix4 n p q s) (fun a => ?_)
      match a with
      | ⟨0, _⟩ => show n.val = if (1024 : Nat) = 1 then 0 else n.val; rw [if_neg (by decide)]
      | ⟨1, _⟩ => show p.val = if (128 : Nat) = 1 then 0 else p.val; rw [if_neg (by decide)]
      | ⟨2, _⟩ => show q.val = if (128 : Nat) = 1 then 0 else q.val; rw [if_neg (by decide)]
      | ⟨3, _⟩ => show s.val = if (2 : Nat) = 1 then 0 else s.val; rw [if_neg (by decide)]
  · rw [if_neg h]
    refine (concatenate_pair_apply_right (s₁ := S1024x128x128x1x2) (s₂ := S1024x128x128x1x2) _ _ _ _ (ix5 n p q r s) rfl rfl (ix5 n p q (⟨0, by decide⟩ : Fin 1) s) ?_ ?_).trans ?_
    · intro a ha
      match a with
      | ⟨0, _⟩ => rfl
      | ⟨1, _⟩ => rfl
      | ⟨2, _⟩ => rfl
      | ⟨3, _⟩ => exact absurd rfl ha
      | ⟨4, _⟩ => rfl
    · show 0 + 1 = r.val
      omega
    · refine broadcastInDim_apply _ _ V _ (ix4 n p q s) (fun a => ?_)
      match a with
      | ⟨0, _⟩ => show n.val = if (1024 : Nat) = 1 then 0 else n.val; rw [if_neg (by decide)]
      | ⟨1, _⟩ => show p.val = if (128 : Nat) = 1 then 0 else p.val; rw [if_neg (by decide)]
      | ⟨2, _⟩ => show q.val = if (128 : Nat) = 1 then 0 else q.val; rw [if_neg (by decide)]
      | ⟨3, _⟩ => show s.val = if (2 : Nat) = 1 then 0 else s.val; rw [if_neg (by decide)]

/-- The flattened batch-and-channel coordinate and the half-resolution position of a pixel's block. -/
def parent3 (i : S16x64x256x256.Idx) : S1024x128x128.Idx :=
  ix3 (⟨(i 0).val * 64 + (i 1).val, by
      have h0 : (i 0).val < 16 := (i 0).isLt
      have h1 : (i 1).val < 64 := (i 1).isLt
      omega⟩ : Fin 1024)
    (⟨(i 2).val / 2, by have h : (i 2).val < 256 := (i 2).isLt; omega⟩ : Fin 128)
    (⟨(i 3).val / 2, by have h : (i 3).val < 256 := (i 3).isLt; omega⟩ : Fin 128)

/-- THE TAIL AT A PIXEL: one of the four coefficient arrays, chosen by the pixel's parities, at its block's position. -/
theorem tail_at (A B C D : S1024x128x128.Idx → α) (i : S16x64x256x256.Idx) :
    tail A B C D i = Haar.pick ((i 2).val % 2) ((i 3).val % 2) (A (parent3 i)) (B (parent3 i)) (C (parent3 i)) (D (parent3 i)) := by
  have h0 : (i 0).val < 16 := (i 0).isLt
  have h1 : (i 1).val < 64 := (i 1).isLt
  have h2 : (i 2).val < 256 := (i 2).isLt
  have h3 : (i 3).val < 256 := (i 3).isLt
  unfold tail
  refine (shapeCast_apply _ _ i (ix3 (n1 := 256) (n2 := 256) (⟨(i 0).val * 64 + (i 1).val, by omega⟩ : Fin 1024) (i 2) (i 3)) ?_).trans ?_
  · rw [Shape.rowMajor_val_three, Shape.rowMajor_val_four]
    show (((i 0).val * 64 + (i 1).val) * 256 + (i 2).val) * 256 + (i 3).val
      = (((i 0).val * 64 + (i 1).val) * 256 + (i 2).val) * 256 + (i 3).val
    rfl
  refine (shapeCast_apply _ _ _ (ix5 (⟨(i 0).val * 64 + (i 1).val, by omega⟩ : Fin 1024)
      (⟨(i 2).val / 2, by omega⟩ : Fin 128) (⟨(i 2).val % 2, by omega⟩ : Fin 2)
      (⟨(i 3).val / 2, by omega⟩ : Fin 128) (⟨(i 3).val % 2, by omega⟩ : Fin 2)) ?_).trans ?_
  · rw [Shape.rowMajor_val_five, Shape.rowMajor_val_three]
    show (((((i 0).val * 64 + (i 1).val) * 128 + (i 2).val / 2) * 2 + (i 2).val % 2) * 128 + (i 3).val / 2) * 2 + (i 3).val % 2
      = (((i 0).val * 64 + (i 1).val) * 256 + (i 2).val) * 256 + (i 3).val
    omega
  refine (transpose_apply _ _ _ _ (ix5 (⟨(i 0).val * 64 + (i 1).val, by omega⟩ : Fin 1024)
      (⟨(i 2).val / 2, by omega⟩ : Fin 128) (⟨(i 3).val / 2, by omega⟩ : Fin 128)
      (⟨(i 2).val % 2, by omega⟩ : Fin 2) (⟨(i 3).val % 2, by omega⟩ : Fin 2)) (fun b => ?_)).trans ?_
  · match b with
    | ⟨0, _⟩ => rfl
    | ⟨1, _⟩ => rfl
    | ⟨2, _⟩ => rfl
    | ⟨3, _⟩ => rfl
    | ⟨4, _⟩ => rfl
  rw [quad_at, pair_at, pair_at]
  rfl

end Cert.KernelIdeal.Tail

end
-- ==== Proof.KernelValue.lean ====
/-
  What the kernel program's result array holds after the run: the inverse Haar step `Haar.G` of its four arguments.

  The program flattens each subband [16, 64, 128, 128] to [1024, 128, 128], runs the region over a grid of 64 points —
  point t stages rows [16 t, 16 t + 16) of every array, and its body writes the four coefficient blocks
  a, b, c, d of the staged rows, entry by entry —, and interleaves the four coefficient arrays on the host.
  So: (1) the region finds each flattened subband as the reshape of the argument; (2) block t of each output array is
  block t of ONE whole-array function of the flattened subbands (the coefficient, entry by entry), and the 64 blocks
  tile the array (row n is in block n / 16), so the array ends holding that function; (3) the host lines after the
  region are the interleaving `Tail.tail` of the four arrays; (4) read at a pixel (b, c, y, x) this is the coefficient
  chosen by (y%2, x%2) of the 4-tuple at flattened position (64 b + c, y/2, x/2), which the reshape reads at
  (b, c, y/2, x/2).
-/
import proofs.«131029_j43722767073763_1_alg».proof.Proof.Gen.KernelIdeal.Frame
import proofs.«131029_j43722767073763_1_alg».proof.Proof.KernelTail
import proofs.«131029_j43722767073763_1_alg».proof.Proof.Haar
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## (1) The flattened subbands as the region finds them -/

theorem V_main_v0 (c : Dev nD) : V m c main_v0
    = shapeCast S1024x128x128 (m ((c : Thread nD τ).loc main_arg0)) Facts₀.shapeCasts_S16x64x128x128_S1024x128x128 := by
  show StableHlo.after hostOps0 (fun b => m (c, b)) (Proc.devRef .tc main_v0) = _
  after_results
  rfl
theorem V_main_v1 (c : Dev nD) : V m c main_v1
    = shapeCast S1024x128x128 (m ((c : Thread nD τ).loc main_arg1)) Facts₀.shapeCasts_S16x64x128x128_S1024x128x128 := by
  show StableHlo.after hostOps0 (fun b => m (c, b)) (Proc.devRef .tc main_v1) = _
  after_results
  rfl
theorem V_main_v2 (c : Dev nD) : V m c main_v2
    = shapeCast S1024x128x128 (m ((c : Thread nD τ).loc main_arg2)) Facts₀.shapeCasts_S16x64x128x128_S1024x128x128 := by
  show StableHlo.after hostOps0 (fun b => m (c, b)) (Proc.devRef .tc main_v2) = _
  after_results
  rfl
theorem V_main_v3 (c : Dev nD) : V m c main_v3
    = shapeCast S1024x128x128 (m ((c : Thread nD τ).loc main_arg3)) Facts₀.shapeCasts_S16x64x128x128_S1024x128x128 := by
  show StableHlo.after hostOps0 (fun b => m (c, b)) (Proc.devRef .tc main_v3) = _
  after_results
  rfl

/-! ## (2) The four coefficient arrays -/

/-- The coefficient arrays as whole-array functions of the flattened subbands, entry by entry. -/
abbrev GA (x0 x1 x2 x3 : S1024x128x128.Idx → Elt F .f32) : S1024x128x128.Idx → Elt F .f32 :=
  fun i => Haar.ca (x0 i) (x1 i) (x2 i) (x3 i)
abbrev GB (x0 x1 x2 x3 : S1024x128x128.Idx → Elt F .f32) : S1024x128x128.Idx → Elt F .f32 :=
  fun i => Haar.cb (x0 i) (x1 i) (x2 i) (x3 i)
abbrev GC (x0 x1 x2 x3 : S1024x128x128.Idx → Elt F .f32) : S1024x128x128.Idx → Elt F .f32 :=
  fun i => Haar.cc (x0 i) (x1 i) (x2 i) (x3 i)
abbrev GD (x0 x1 x2 x3 : S1024x128x128.Idx → Elt F .f32) : S1024x128x128.Idx → Elt F .f32 :=
  fun i => Haar.cd (x0 i) (x1 i) (x2 i) (x3 i)

/-- The body's four stored values are the four coefficients of its loaded blocks, entry by entry (the body's casts
    between equal shapes are the identity). -/
theorem payA (x0 x1 x2 x3 : Vec F S16x128x128 .f32) :
    k0_pay5 x0 x1 x2 x3 = fun j => Haar.ca (x0 j) (x1 j) (x2 j) (x3 j) := by
  unfold k0_pay5 k0_pay1 k0_pay2 k0_pay3 k0_pay4
  simp only [shapeCast_self]
  rfl
theorem payB (x0 x1 x2 x3 : Vec F S16x128x128 .f32) :
    k0_pay6 x0 x1 x2 x3 = fun j => Haar.cb (x0 j) (x1 j) (x2 j) (x3 j) := by
  unfold k0_pay6 k0_pay1 k0_pay2 k0_pay3 k0_pay4
  simp only [shapeCast_self]
  rfl
theorem payC (x0 x1 x2 x3 : Vec F S16x128x128 .f32) :
    k0_pay7 x0 x1 x2 x3 = fun j => Haar.cc (x0 j) (x1 j) (x2 j) (x3 j) := by
  unfold k0_pay7 k0_pay1 k0_pay2 k0_pay3 k0_pay4
  simp only [shapeCast_self]
  rfl
theorem payD (x0 x1 x2 x3 : Vec F S16x128x128 .f32) :
    k0_pay8 x0 x1 x2 x3 = fun j => Haar.cd (x0 j) (x1 j) (x2 j) (x3 j) := by
  unfold k0_pay8 k0_pay1 k0_pay2 k0_pay3 k0_pay4
  simp only [shapeCast_self]
  rfl

theorem hz : (![0, 0, 0] : Fin 3 → Nat) = fun _ => 0 := funext fun a => by fin_cases a <;> rfl

/-- Every window's block index at point `t` is (t, 0, 0): the windows move together, sixteen rows a point. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-- Where entry `j` of a block of point `t` sits in its array: row 16 t + j₀, the other coordinates kept. -/
def rowOf (t : Fin cfg0.N) (j : S16x128x128.Idx) : S1024x128x128.Idx :=
  ix3 (⟨t.val * 16 + (j 0).val, by
        have ht : t.val < 64 := lt_of_lt_of_eq t.isLt N_0
        have hj : (j 0).val < 16 := (j 0).isLt
        omega⟩ : Fin 1024)
    (⟨(j 1).val, (j 1).isLt⟩ : Fin 128) (⟨(j 2).val, (j 2).isLt⟩ : Fin 128)

/-- Every window's block at a point sits on the same rows of its array. -/
theorem emb0 (t : Fin cfg0.N) (j : S16x128x128.Idx) : ((cfg0.win 0).blk t).view.emb j = rowOf t j := by
  obtain ⟨a0, a1, a2⟩ := idx0 t
  funext a; apply Fin.ext
  match a with
  | ⟨0, _⟩ => show win0_0.index t (0 : Fin 3) * 16 + 1 * (j 0).val = t.val * 16 + (j 0).val; omega
  | ⟨1, _⟩ => show win0_0.index t (1 : Fin 3) * 128 + 1 * (j 1).val = (j 1).val; omega
  | ⟨2, _⟩ => show win0_0.index t (2 : Fin 3) * 128 + 1 * (j 2).val = (j 2).val; omega
theorem emb1 (t : Fin cfg0.N) (j : S16x128x128.Idx) : ((cfg0.win 1).blk t).view.emb j = rowOf t j := by
  obtain ⟨a0, a1, a2⟩ := idx1 t
  funext a; apply Fin.ext
  match a with
  | ⟨0, _⟩ => show win0_1.index t (0 : Fin 3) * 16 + 1 * (j 0).val = t.val * 16 + (j 0).val; omega
  | ⟨1, _⟩ => show win0_1.index t (1 : Fin 3) * 128 + 1 * (j 1).val = (j 1).val; omega
  | ⟨2, _⟩ => show win0_1.index t (2 : Fin 3) * 128 + 1 * (j 2).val = (j 2).val; omega
theorem emb2 (t : Fin cfg0.N) (j : S16x128x128.Idx) : ((cfg0.win 2).blk t).view.emb j = rowOf t j := by
  obtain ⟨a0, a1, a2⟩ := idx2 t
  funext a; apply Fin.ext
  match a with
  | ⟨0, _⟩ => show win0_2.index t (0 : Fin 3) * 16 + 1 * (j 0).val = t.val * 16 + (j 0).val; omega
  | ⟨1, _⟩ => show win0_2.index t (1 : Fin 3) * 128 + 1 * (j 1).val = (j 1).val; omega
  | ⟨2, _⟩ => show win0_2.index t (2 : Fin 3) * 128 + 1 * (j 2).val = (j 2).val; omega
theorem emb3 (t : Fin cfg0.N) (j : S16x128x128.Idx) : ((cfg0.win 3).blk t).view.emb j = rowOf t j := by
  obtain ⟨a0, a1, a2⟩ := idx3 t
  funext a; apply Fin.ext
  match a with
  | ⟨0, _⟩ => show win0_3.index t (0 : Fin 3) * 16 + 1 * (j 0).val = t.val * 16 + (j 0).val; omega
  | ⟨1, _⟩ => show win0_3.index t (1 : Fin 3) * 128 + 1 * (j 1).val = (j 1).val; omega
  | ⟨2, _⟩ => show win0_3.index t (2 : Fin 3) * 128 + 1 * (j 2).val = (j 2).val; omega
theorem emb4 (t : Fin cfg0.N) (j : S16x128x128.Idx) : ((cfg0.win 4).blk t).view.emb j = rowOf t j := by
  obtain ⟨a0, a1, a2⟩ := idx4 t
  funext a; apply Fin.ext
  match a with
  | ⟨0, _⟩ => show win0_4.index t (0 : Fin 3) * 16 + 1 * (j 0).val = t.val * 16 + (j 0).val; omega
  | ⟨1, _⟩ => show win0_4.index t (1 : Fin 3) * 128 + 1 * (j 1).val = (j 1).val; omega
  | ⟨2, _⟩ => show win0_4.index t (2 : Fin 3) * 128 + 1 * (j 2).val = (j 2).val; omega
theorem emb5 (t : Fin cfg0.N) (j : S16x128x128.Idx) : ((cfg0.win 5).blk t).view.emb j = rowOf t j := by
  obtain ⟨a0, a1, a2⟩ := idx5 t
  funext a; apply Fin.ext
  match a with
  | ⟨0, _⟩ => show win0_5.index t (0 : Fin 3) * 16 + 1 * (j 0).val = t.val * 16 + (j 0).val; omega
  | ⟨1, _⟩ => show win0_5.index t (1 : Fin 3) * 128 + 1 * (j 1).val = (j 1).val; omega
  | ⟨2, _⟩ => show win0_5.index t (2 : Fin 3) * 128 + 1 * (j 2).val = (j 2).val; omega
theorem emb6 (t : Fin cfg0.N) (j : S16x128x128.Idx) : ((cfg0.win 6).blk t).view.emb j = rowOf t j := by
  obtain ⟨a0, a1, a2⟩ := idx6 t
  funext a; apply Fin.ext
  match a with
  | ⟨0, _⟩ => show win0_6.index t (0 : Fin 3) * 16 + 1 * (j 0).val = t.val * 16 + (j 0).val; omega
  | ⟨1, _⟩ => show win0_6.index t (1 : Fin 3) * 128 + 1 * (j 1).val = (j 1).val; omega
  | ⟨2, _⟩ => show win0_6.index t (2 : Fin 3) * 128 + 1 * (j 2).val = (j 2).val; omega
theorem emb7 (t : Fin cfg0.N) (j : S16x128x128.Idx) : ((cfg0.win 7).blk t).view.emb j = rowOf t j := by
  obtain ⟨a0, a1, a2⟩ := idx7 t
  funext a; apply Fin.ext
  match a with
  | ⟨0, _⟩ => show win0_7.index t (0 : Fin 3) * 16 + 1 * (j 0).val = t.val * 16 + (j 0).val; omega
  | ⟨1, _⟩ => show win0_7.index t (1 : Fin 3) * 128 + 1 * (j 1).val = (j 1).val; omega
  | ⟨2, _⟩ => show win0_7.index t (2 : Fin 3) * 128 + 1 * (j 2).val = (j 2).val; omega

/-- WHAT POINT `t` WRITES BACK through window 4 is block `t` of the coefficient array a of the flattened subbands:
    the body's stored value is the coefficient of the loaded blocks entry by entry, and every window's block sits on the
    same rows. -/
theorem flushedA (c : Dev nD) (t : Fin cfg0.N) :
    (dats m 0 c).flushed 4 t = ((cfg0.win 4).blk t).view.read (Elt F) (GA (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S16x128x128) hz]
  rw [payA]
  funext j
  show Haar.ca (V m c main_v0 (((cfg0.win 0).blk t).view.emb j)) (V m c main_v1 (((cfg0.win 1).blk t).view.emb j))
      (V m c main_v2 (((cfg0.win 2).blk t).view.emb j)) (V m c main_v3 (((cfg0.win 3).blk t).view.emb j))
    = Haar.ca (V m c main_v0 (((cfg0.win 4).blk t).view.emb j)) (V m c main_v1 (((cfg0.win 4).blk t).view.emb j))
      (V m c main_v2 (((cfg0.win 4).blk t).view.emb j)) (V m c main_v3 (((cfg0.win 4).blk t).view.emb j))
  rw [emb0, emb1, emb2, emb3, emb4]

/-- An index of the array is in point `t`'s block of window 4 iff each coordinate is in the block's range on its axis. -/
theorem mem_blkA (t : Fin cfg0.N) (i : S1024x128x128.Idx) :
    i ∈ ((cfg0.win 4).blk t).view.set ↔ ∀ a : Fin 3, win0_4.index t a * S16x128x128.size a ≤ (i a).val ∧ (i a).val < win0_4.index t a * S16x128x128.size a + S16x128x128.size a := by
  show i ∈ ((View.whole main_v4_0).slice (win0_4.rect t)).set ↔ _
  rw [View.set_slice_whole, Rect.mem_set_unit]
  exact Iff.rfl

/-- Row `n` of the array is in the block of point `n / 16`: the 64 blocks tile the array. -/
theorem coverA (i : S1024x128x128.Idx) :
    ∃ t : Fin cfg0.N, (cfg0.win 4).flush t = true ∧ i ∈ ((cfg0.win 4).blk t).view.set := by
  have hi0 : (i 0).val < 1024 := (i 0).isLt
  have hi1 : (i 1).val < 128 := (i 1).isLt
  have hi2 : (i 2).val < 128 := (i 2).isLt
  have hN : (i 0).val / 16 < cfg0.N := by show (i 0).val / 16 < grid0.N; rw [N_0]; omega
  refine ⟨⟨(i 0).val / 16, hN⟩, flush0_4 _, ?_⟩
  obtain ⟨a0, a1, a2⟩ := idx4 ⟨(i 0).val / 16, hN⟩
  have a0' : win0_4.index ⟨(i 0).val / 16, hN⟩ (0 : Fin 3) = (i 0).val / 16 := a0
  rw [mem_blkA]
  intro a
  match a with
  | ⟨0, _⟩ => show win0_4.index ⟨(i 0).val / 16, hN⟩ (0 : Fin 3) * 16 ≤ (i 0).val ∧ (i 0).val < win0_4.index ⟨(i 0).val / 16, hN⟩ (0 : Fin 3) * 16 + 16; omega
  | ⟨1, _⟩ => show win0_4.index ⟨(i 0).val / 16, hN⟩ (1 : Fin 3) * 128 ≤ (i 1).val ∧ (i 1).val < win0_4.index ⟨(i 0).val / 16, hN⟩ (1 : Fin 3) * 128 + 128; omega
  | ⟨2, _⟩ => show win0_4.index ⟨(i 0).val / 16, hN⟩ (2 : Fin 3) * 128 ≤ (i 2).val ∧ (i 2).val < win0_4.index ⟨(i 0).val / 16, hN⟩ (2 : Fin 3) * 128 + 128; omega

/-- THE ARRAY of window 4 after the run: the coefficient array a of the flattened subbands. -/
theorem finalA (c : Dev nD) :
    (dats m 0 c).arrAt 4 cfg0.N = GA (V m c main_v0) (V m c main_v1) (V m c main_v2) (V m c main_v3) :=
  (dats m 0 c).arrAt_eq_of_cover 4 _ (fun t _ => flushedA m c t) coverA

/-- WHAT POINT `t` WRITES BACK through window 5 is block `t` of the coefficient array b of the flattened subbands:
    the body's stored value is the coefficient of the loaded blocks entry by entry, and every window's block sits on the
    same rows. -/
theorem flushedB (c : Dev nD) (t : Fin cfg0.N) :
    (dats m 0 c).flushed 5 t = ((cfg0.win 5).blk t).view.read (Elt F) (GB (V m c main_v0) (V m c main_v1) (V m c main_v2) (V m c main_v3)) := by
  show (cfg0.win 5).cut (grid0.coords t) ((dats m 0 c).after 5 t) = _
  rw [after0_5]
  unfold out0_5
  rw [View.canon_unit_zero hz]
  simp only [View.ld_unit_zero (S := S16x128x128) hz]
  rw [payB]
  funext j
  show Haar.cb (V m c main_v0 (((cfg0.win 0).blk t).view.emb j)) (V m c main_v1 (((cfg0.win 1).blk t).view.emb j))
      (V m c main_v2 (((cfg0.win 2).blk t).view.emb j)) (V m c main_v3 (((cfg0.win 3).blk t).view.emb j))
    = Haar.cb (V m c main_v0 (((cfg0.win 5).blk t).view.emb j)) (V m c main_v1 (((cfg0.win 5).blk t).view.emb j))
      (V m c main_v2 (((cfg0.win 5).blk t).view.emb j)) (V m c main_v3 (((cfg0.win 5).blk t).view.emb j))
  rw [emb0, emb1, emb2, emb3, emb5]

/-- An index of the array is in point `t`'s block of window 5 iff each coordinate is in the block's range on its axis. -/
theorem mem_blkB (t : Fin cfg0.N) (i : S1024x128x128.Idx) :
    i ∈ ((cfg0.win 5).blk t).view.set ↔ ∀ a : Fin 3, win0_5.index t a * S16x128x128.size a ≤ (i a).val ∧ (i a).val < win0_5.index t a * S16x128x128.size a + S16x128x128.size a := by
  show i ∈ ((View.whole main_v4_1).slice (win0_5.rect t)).set ↔ _
  rw [View.set_slice_whole, Rect.mem_set_unit]
  exact Iff.rfl

/-- Row `n` of the array is in the block of point `n / 16`: the 64 blocks tile the array. -/
theorem coverB (i : S1024x128x128.Idx) :
    ∃ t : Fin cfg0.N, (cfg0.win 5).flush t = true ∧ i ∈ ((cfg0.win 5).blk t).view.set := by
  have hi0 : (i 0).val < 1024 := (i 0).isLt
  have hi1 : (i 1).val < 128 := (i 1).isLt
  have hi2 : (i 2).val < 128 := (i 2).isLt
  have hN : (i 0).val / 16 < cfg0.N := by show (i 0).val / 16 < grid0.N; rw [N_0]; omega
  refine ⟨⟨(i 0).val / 16, hN⟩, flush0_5 _, ?_⟩
  obtain ⟨a0, a1, a2⟩ := idx5 ⟨(i 0).val / 16, hN⟩
  have a0' : win0_5.index ⟨(i 0).val / 16, hN⟩ (0 : Fin 3) = (i 0).val / 16 := a0
  rw [mem_blkB]
  intro a
  match a with
  | ⟨0, _⟩ => show win0_5.index ⟨(i 0).val / 16, hN⟩ (0 : Fin 3) * 16 ≤ (i 0).val ∧ (i 0).val < win0_5.index ⟨(i 0).val / 16, hN⟩ (0 : Fin 3) * 16 + 16; omega
  | ⟨1, _⟩ => show win0_5.index ⟨(i 0).val / 16, hN⟩ (1 : Fin 3) * 128 ≤ (i 1).val ∧ (i 1).val < win0_5.index ⟨(i 0).val / 16, hN⟩ (1 : Fin 3) * 128 + 128; omega
  | ⟨2, _⟩ => show win0_5.index ⟨(i 0).val / 16, hN⟩ (2 : Fin 3) * 128 ≤ (i 2).val ∧ (i 2).val < win0_5.index ⟨(i 0).val / 16, hN⟩ (2 : Fin 3) * 128 + 128; omega

/-- THE ARRAY of window 5 after the run: the coefficient array b of the flattened subbands. -/
theorem finalB (c : Dev nD) :
    (dats m 0 c).arrAt 5 cfg0.N = GB (V m c main_v0) (V m c main_v1) (V m c main_v2) (V m c main_v3) :=
  (dats m 0 c).arrAt_eq_of_cover 5 _ (fun t _ => flushedB m c t) coverB

/-- WHAT POINT `t` WRITES BACK through window 6 is block `t` of the coefficient array c of the flattened subbands:
    the body's stored value is the coefficient of the loaded blocks entry by entry, and every window's block sits on the
    same rows. -/
theorem flushedC (c : Dev nD) (t : Fin cfg0.N) :
    (dats m 0 c).flushed 6 t = ((cfg0.win 6).blk t).view.read (Elt F) (GC (V m c main_v0) (V m c main_v1) (V m c main_v2) (V m c main_v3)) := by
  show (cfg0.win 6).cut (grid0.coords t) ((dats m 0 c).after 6 t) = _
  rw [after0_6]
  unfold out0_6
  rw [View.canon_unit_zero hz]
  simp only [View.ld_unit_zero (S := S16x128x128) hz]
  rw [payC]
  funext j
  show Haar.cc (V m c main_v0 (((cfg0.win 0).blk t).view.emb j)) (V m c main_v1 (((cfg0.win 1).blk t).view.emb j))
      (V m c main_v2 (((cfg0.win 2).blk t).view.emb j)) (V m c main_v3 (((cfg0.win 3).blk t).view.emb j))
    = Haar.cc (V m c main_v0 (((cfg0.win 6).blk t).view.emb j)) (V m c main_v1 (((cfg0.win 6).blk t).view.emb j))
      (V m c main_v2 (((cfg0.win 6).blk t).view.emb j)) (V m c main_v3 (((cfg0.win 6).blk t).view.emb j))
  rw [emb0, emb1, emb2, emb3, emb6]

/-- An index of the array is in point `t`'s block of window 6 iff each coordinate is in the block's range on its axis. -/
theorem mem_blkC (t : Fin cfg0.N) (i : S1024x128x128.Idx) :
    i ∈ ((cfg0.win 6).blk t).view.set ↔ ∀ a : Fin 3, win0_6.index t a * S16x128x128.size a ≤ (i a).val ∧ (i a).val < win0_6.index t a * S16x128x128.size a + S16x128x128.size a := by
  show i ∈ ((View.whole main_v4_2).slice (win0_6.rect t)).set ↔ _
  rw [View.set_slice_whole, Rect.mem_set_unit]
  exact Iff.rfl

/-- Row `n` of the array is in the block of point `n / 16`: the 64 blocks tile the array. -/
theorem coverC (i : S1024x128x128.Idx) :
    ∃ t : Fin cfg0.N, (cfg0.win 6).flush t = true ∧ i ∈ ((cfg0.win 6).blk t).view.set := by
  have hi0 : (i 0).val < 1024 := (i 0).isLt
  have hi1 : (i 1).val < 128 := (i 1).isLt
  have hi2 : (i 2).val < 128 := (i 2).isLt
  have hN : (i 0).val / 16 < cfg0.N := by show (i 0).val / 16 < grid0.N; rw [N_0]; omega
  refine ⟨⟨(i 0).val / 16, hN⟩, flush0_6 _, ?_⟩
  obtain ⟨a0, a1, a2⟩ := idx6 ⟨(i 0).val / 16, hN⟩
  have a0' : win0_6.index ⟨(i 0).val / 16, hN⟩ (0 : Fin 3) = (i 0).val / 16 := a0
  rw [mem_blkC]
  intro a
  match a with
  | ⟨0, _⟩ => show win0_6.index ⟨(i 0).val / 16, hN⟩ (0 : Fin 3) * 16 ≤ (i 0).val ∧ (i 0).val < win0_6.index ⟨(i 0).val / 16, hN⟩ (0 : Fin 3) * 16 + 16; omega
  | ⟨1, _⟩ => show win0_6.index ⟨(i 0).val / 16, hN⟩ (1 : Fin 3) * 128 ≤ (i 1).val ∧ (i 1).val < win0_6.index ⟨(i 0).val / 16, hN⟩ (1 : Fin 3) * 128 + 128; omega
  | ⟨2, _⟩ => show win0_6.index ⟨(i 0).val / 16, hN⟩ (2 : Fin 3) * 128 ≤ (i 2).val ∧ (i 2).val < win0_6.index ⟨(i 0).val / 16, hN⟩ (2 : Fin 3) * 128 + 128; omega

/-- THE ARRAY of window 6 after the run: the coefficient array c of the flattened subbands. -/
theorem finalC (c : Dev nD) :
    (dats m 0 c).arrAt 6 cfg0.N = GC (V m c main_v0) (V m c main_v1) (V m c main_v2) (V m c main_v3) :=
  (dats m 0 c).arrAt_eq_of_cover 6 _ (fun t _ => flushedC m c t) coverC

/-- WHAT POINT `t` WRITES BACK through window 7 is block `t` of the coefficient array d of the flattened subbands:
    the body's stored value is the coefficient of the loaded blocks entry by entry, and every window's block sits on the
    same rows. -/
theorem flushedD (c : Dev nD) (t : Fin cfg0.N) :
    (dats m 0 c).flushed 7 t = ((cfg0.win 7).blk t).view.read (Elt F) (GD (V m c main_v0) (V m c main_v1) (V m c main_v2) (V m c main_v3)) := by
  show (cfg0.win 7).cut (grid0.coords t) ((dats m 0 c).after 7 t) = _
  rw [after0_7]
  unfold out0_7
  rw [View.canon_unit_zero hz]
  simp only [View.ld_unit_zero (S := S16x128x128) hz]
  rw [payD]
  funext j
  show Haar.cd (V m c main_v0 (((cfg0.win 0).blk t).view.emb j)) (V m c main_v1 (((cfg0.win 1).blk t).view.emb j))
      (V m c main_v2 (((cfg0.win 2).blk t).view.emb j)) (V m c main_v3 (((cfg0.win 3).blk t).view.emb j))
    = Haar.cd (V m c main_v0 (((cfg0.win 7).blk t).view.emb j)) (V m c main_v1 (((cfg0.win 7).blk t).view.emb j))
      (V m c main_v2 (((cfg0.win 7).blk t).view.emb j)) (V m c main_v3 (((cfg0.win 7).blk t).view.emb j))
  rw [emb0, emb1, emb2, emb3, emb7]

/-- An index of the array is in point `t`'s block of window 7 iff each coordinate is in the block's range on its axis. -/
theorem mem_blkD (t : Fin cfg0.N) (i : S1024x128x128.Idx) :
    i ∈ ((cfg0.win 7).blk t).view.set ↔ ∀ a : Fin 3, win0_7.index t a * S16x128x128.size a ≤ (i a).val ∧ (i a).val < win0_7.index t a * S16x128x128.size a + S16x128x128.size a := by
  show i ∈ ((View.whole main_v4_3).slice (win0_7.rect t)).set ↔ _
  rw [View.set_slice_whole, Rect.mem_set_unit]
  exact Iff.rfl

/-- Row `n` of the array is in the block of point `n / 16`: the 64 blocks tile the array. -/
theorem coverD (i : S1024x128x128.Idx) :
    ∃ t : Fin cfg0.N, (cfg0.win 7).flush t = true ∧ i ∈ ((cfg0.win 7).blk t).view.set := by
  have hi0 : (i 0).val < 1024 := (i 0).isLt
  have hi1 : (i 1).val < 128 := (i 1).isLt
  have hi2 : (i 2).val < 128 := (i 2).isLt
  have hN : (i 0).val / 16 < cfg0.N := by show (i 0).val / 16 < grid0.N; rw [N_0]; omega
  refine ⟨⟨(i 0).val / 16, hN⟩, flush0_7 _, ?_⟩
  obtain ⟨a0, a1, a2⟩ := idx7 ⟨(i 0).val / 16, hN⟩
  have a0' : win0_7.index ⟨(i 0).val / 16, hN⟩ (0 : Fin 3) = (i 0).val / 16 := a0
  rw [mem_blkD]
  intro a
  match a with
  | ⟨0, _⟩ => show win0_7.index ⟨(i 0).val / 16, hN⟩ (0 : Fin 3) * 16 ≤ (i 0).val ∧ (i 0).val < win0_7.index ⟨(i 0).val / 16, hN⟩ (0 : Fin 3) * 16 + 16; omega
  | ⟨1, _⟩ => show win0_7.index ⟨(i 0).val / 16, hN⟩ (1 : Fin 3) * 128 ≤ (i 1).val ∧ (i 1).val < win0_7.index ⟨(i 0).val / 16, hN⟩ (1 : Fin 3) * 128 + 128; omega
  | ⟨2, _⟩ => show win0_7.index ⟨(i 0).val / 16, hN⟩ (2 : Fin 3) * 128 ≤ (i 2).val ∧ (i 2).val < win0_7.index ⟨(i 0).val / 16, hN⟩ (2 : Fin 3) * 128 + 128; omega

/-- THE ARRAY of window 7 after the run: the coefficient array d of the flattened subbands. -/
theorem finalD (c : Dev nD) :
    (dats m 0 c).arrAt 7 cfg0.N = GD (V m c main_v0) (V m c main_v1) (V m c main_v2) (V m c main_v3) :=
  (dats m 0 c).arrAt_eq_of_cover 7 _ (fun t _ => flushedD m c t) coverD

end Cert.KernelIdeal.KValue

end
-- ==== Proof.KernelRun.lean ====
/-
  The kernel program's run, read: its result array ends holding the inverse Haar step `Haar.G` of its arguments.

  The host lines after the region compute, from whatever the buffers hold, the interleaving `Tail.tail` of the four
  arrays the region wrote; the region leaves those at the coefficient arrays of the flattened subbands
  (`finalA` … `finalD`); and a flattened subband read at (64 b + c, p, q) is the argument read at (b, c, p, q), both
  positions being ((64 b + c) · 128 + p) · 128 + q in row-major order. So pixel (b, c, y, x) of the result is the
  coefficient chosen by (y%2, x%2) of the argument 4-tuple at (b, c, y/2, x/2).
-/
import proofs.«131029_j43722767073763_1_alg».proof.Proof.KernelValue

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## (3) The host lines after the region -/

/-- Run on any contents `W` of the buffers, the lines after the region leave the result buffer at the interleaving
    of the four arrays the region wrote. -/
theorem tail_of (W : Valuation τ sig (Elt F)) :
    StableHlo.after hostOps1 W (Proc.devRef .tc main_v16)
      = Tail.tail (W (Proc.devRef .tc main_v4_0)) (W (Proc.devRef .tc main_v4_1))
          (W (Proc.devRef .tc main_v4_2)) (W (Proc.devRef .tc main_v4_3)) := by
  after_results
  rfl

/-- What the region leaves in each of its output arrays is that array after every write-back. -/
theorem left4 (c : Dev nD) :
    Pipeline.withArrays spec0 c (V0 m c) (fun w => (dats m 0 c).arrAt w cfg0.N) (Proc.devRef .tc main_v4_0)
      = (dats m 0 c).arrAt 4 cfg0.N :=
  Pipeline.withArrays_arr spec0 launch0.win.arr_inj c _ _ 4
theorem left5 (c : Dev nD) :
    Pipeline.withArrays spec0 c (V0 m c) (fun w => (dats m 0 c).arrAt w cfg0.N) (Proc.devRef .tc main_v4_1)
      = (dats m 0 c).arrAt 5 cfg0.N :=
  Pipeline.withArrays_arr spec0 launch0.win.arr_inj c _ _ 5
theorem left6 (c : Dev nD) :
    Pipeline.withArrays spec0 c (V0 m c) (fun w => (dats m 0 c).arrAt w cfg0.N) (Proc.devRef .tc main_v4_2)
      = (dats m 0 c).arrAt 6 cfg0.N :=
  Pipeline.withArrays_arr spec0 launch0.win.arr_inj c _ _ 6
theorem left7 (c : Dev nD) :
    Pipeline.withArrays spec0 c (V0 m c) (fun w => (dats m 0 c).arrAt w cfg0.N) (Proc.devRef .tc main_v4_3)
      = (dats m 0 c).arrAt 7 cfg0.N :=
  Pipeline.withArrays_arr spec0 launch0.win.arr_inj c _ _ 7

/-- The result buffer after the whole program: the interleaving of the four output arrays after the run. -/
theorem tail_eq (c : Dev nD) :
    Pipeline.afterTail₀ cfgs (dats m) 0 (V0 m) [hostOps1] c main_v16
      = Tail.tail ((dats m 0 c).arrAt 4 cfg0.N) ((dats m 0 c).arrAt 5 cfg0.N)
          ((dats m 0 c).arrAt 6 cfg0.N) ((dats m 0 c).arrAt 7 cfg0.N) := by
  unfold Pipeline.afterTail₀
  show StableHlo.after hostOps1 (Pipeline.withArrays spec0 c (V0 m c) fun w => (dats m 0 c).arrAt w cfg0.N)
      (Proc.devRef .tc main_v16) = _
  rw [tail_of, left4, left5, left6, left7]

/-! ## (4) The result at a pixel -/

/-- A flattened subband at (64 b + c, y/2, x/2) is the subband at (b, c, y/2, x/2). -/
theorem flat_at {α : Type} (X : S16x64x128x128.Idx → α) (i : S16x64x256x256.Idx) :
    shapeCast S1024x128x128 X Facts₀.shapeCasts_S16x64x128x128_S1024x128x128 (Tail.parent3 i) = X (Haar.parent i) := by
  refine shapeCast_apply _ _ _ _ ?_
  rw [Shape.rowMajor_val_four, Shape.rowMajor_val_three]
  show (((i 0).val * 64 + (i 1).val) * 128 + (i 2).val / 2) * 128 + (i 3).val / 2
    = (((i 0).val * 64 + (i 1).val) * 128 + (i 2).val / 2) * 128 + (i 3).val / 2
  rfl

/-- THE RESULT of the kernel program: the inverse Haar step of its four arguments. -/
theorem result_eq (c : Dev nD) :
    Pipeline.afterTail₀ cfgs (dats m) 0 (V0 m) [hostOps1] c main_v16
      = Haar.G (F := F) (m ((c : Thread nD τ).loc main_arg0)) (m ((c : Thread nD τ).loc main_arg1))
          (m ((c : Thread nD τ).loc main_arg2)) (m ((c : Thread nD τ).loc main_arg3)) := by
  rw [tail_eq, finalA, finalB, finalC, finalD, V_main_v0, V_main_v1, V_main_v2, V_main_v3]
  funext i
  rw [Tail.tail_at]
  simp only [GA, GB, GC, GD, flat_at]
  rfl

/-! ## The run -/

/-- Every weakly fair execution of the kernel program terminates with its result array at the inverse Haar step of its
    arguments and its arguments unchanged. -/
theorem run : θ_run defs (onTc (τ := τ) (main (F := F))) ⟨m, fun _ => 0, ρ⟩ fun r => ∀ c : Dev nD,
      r.2.mem ((c.tc : Thread nD τ).loc main_v16)
        = Haar.G (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v16 (Pipeline.mem_restRefs_of main_v16 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KValue

end
-- ==== Proof.lean ====
/-
  The certificate of the inverse Haar step (one level of a 2-D inverse wavelet transform with the orthonormal Haar
  filters): the kernel program against its jnp reference, on the extended reals.

  Both programs compute, from four half-resolution subbands LL, LH, HL, HH over [16, 64, 128, 128], the
  full-resolution image over [16, 64, 256, 256] whose 2×2 block at (2p, 2q) is
      a = (((LL + LH) + HL) + HH) · ½      b = (((LL + LH) − HL) − HH) · ½
      c = (((LL − LH) + HL) − HH) · ½      d = (((LL − LH) − HL) + HH) · ½
  of the coefficient 4-tuple at (p, q). The kernel program flattens batch and channel into one axis of 1024, computes
  the four coefficient arrays in a region of 64 grid points (sixteen flattened rows a point), and interleaves them on
  the host; the reference computes the same four arrays on the host and interleaves them without flattening. The two
  sides group every sum and product alike and use the same word for ½, so the claim needs no law of arithmetic and no
  finiteness: it is the statement that the two index maps agree. `Haar.G` (Proof/Haar.lean) is the common function:
  pixel (b, c, y, x) is the coefficient chosen by the parities (y mod 2, x mod 2) of the 4-tuple at
  (b, c, y / 2, x / 2). Proof/RefValue.lean reads the reference's layout operations back to it, Proof/KernelTail.lean the
  kernel program's host lines after the region, Proof/KernelValue.lean the region's four output arrays, and
  Proof/KernelRun.lean joins them into the kernel program's run.

  The three frame claims are the programs' runs with the result dropped; the idealization rewrote no operation, so
  there is nothing to preserve.
-/
import proofs.«131029_j43722767073763_1_alg».proof.Defs
import proofs.«131029_j43722767073763_1_alg».proof.Proof.Gen.Kernel
import proofs.«131029_j43722767073763_1_alg».proof.Proof.Gen.Kernel.Skeleton
import proofs.«131029_j43722767073763_1_alg».proof.Proof.Gen.Kernel.Launch
import proofs.«131029_j43722767073763_1_alg».proof.Proof.Gen.Kernel.Points
import proofs.«131029_j43722767073763_1_alg».proof.Proof.Gen.Kernel.Frame
import proofs.«131029_j43722767073763_1_alg».proof.Proof.Gen.KernelIdeal
import proofs.«131029_j43722767073763_1_alg».proof.Proof.Gen.KernelIdeal.Skeleton
import proofs.«131029_j43722767073763_1_alg».proof.Proof.Gen.KernelIdeal.Launch
import proofs.«131029_j43722767073763_1_alg».proof.Proof.Gen.KernelIdeal.Points
import proofs.«131029_j43722767073763_1_alg».proof.Proof.Gen.KernelIdeal.Frame
import proofs.«131029_j43722767073763_1_alg».proof.Proof.Gen.ReferenceIdeal
import proofs.«131029_j43722767073763_1_alg».proof.Proof.Gen.Pre_finite_inputs
import proofs.«131029_j43722767073763_1_alg».proof.Proof.Gen.ReferenceIdeal.Run
import proofs.«131029_j43722767073763_1_alg».proof.Proof.Gen.ReferenceIdeal.Read
import proofs.«131029_j43722767073763_1_alg».proof.Proof.Haar
import proofs.«131029_j43722767073763_1_alg».proof.Proof.RefValue
import proofs.«131029_j43722767073763_1_alg».proof.Proof.KernelTail
import proofs.«131029_j43722767073763_1_alg».proof.Proof.KernelValue
import proofs.«131029_j43722767073763_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the four subbands both programs end with the image `Haar.G` of the subbands: the kernel
    program by its run read back (`KValue.run`), the reference by its run's term, which is that function
    (`RefValue.result_eq`) of arguments that agree. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
